-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S128x16 : Shape := ⟨2, ![128, 16]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S64x512x128 .f32) (main_arg1 : FVec F S128x16 .f32) (main_arg2 : FVec F S128x16 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  main_v13
-- ==== Kernel.lean ====
abbrev S64x512x128 : Shape := ⟨3, ![64, 512, 128]⟩
abbrev S128x16 : Shape := ⟨2, ![128, 16]⟩
abbrev S32768x128 : Shape := ⟨2, ![32768, 128]⟩
abbrev S128x128 : Shape := ⟨2, ![128, 128]⟩
abbrev S_ : Shape := ⟨0, ![]⟩
abbrev S128x128x1 : Shape := ⟨3, ![128, 128, 1]⟩
abbrev S1x128x16 : Shape := ⟨3, ![1, 128, 16]⟩
abbrev S128x128x16 : Shape := ⟨3, ![128, 128, 16]⟩
abbrev S128x2048 : Shape := ⟨2, ![128, 2048]⟩
abbrev S1x2048 : Shape := ⟨2, ![1, 2048]⟩
abbrev S32768x2048 : Shape := ⟨2, ![32768, 2048]⟩
abbrev S64x512x2048 : Shape := ⟨3, ![64, 512, 2048]⟩
abbrev S1024x128 : Shape := ⟨2, ![1024, 128]⟩
abbrev S1024x2048 : Shape := ⟨2, ![1024, 2048]⟩

abbrev nBuf : Space → Nat
  | .hbm => 21
  | .vmem => 6
  | .smem => 0
  | _ => 0

abbrev bufTy : (tb : Table) → Fin (tcTables nBuf tb) → BufTy
  | .hbm, ⟨0, _⟩ => ⟨S64x512x128, .f32⟩
  | .hbm, ⟨1, _⟩ => ⟨S128x16, .f32⟩
  | .hbm, ⟨2, _⟩ => ⟨S128x16, .f32⟩
  | .hbm, ⟨3, _⟩ => ⟨S32768x128, .f32⟩
  | .hbm, ⟨4, _⟩ => ⟨S128x128, .i32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S128x128, .f32⟩
  | .hbm, ⟨11, _⟩ => ⟨S128x128x1, .f32⟩
  | .hbm, ⟨12, _⟩ => ⟨S1x128x16, .f32⟩
  | .hbm, ⟨13, _⟩ => ⟨S128x128x16, .f32⟩
  | .hbm, ⟨14, _⟩ => ⟨S128x128x16, .f32⟩
  | .hbm, ⟨15, _⟩ => ⟨S128x128x16, .f32⟩
  | .hbm, ⟨16, _⟩ => ⟨S128x2048, .f32⟩
  | .hbm, ⟨17, _⟩ => ⟨S128x2048, .bf16⟩
  | .hbm, ⟨18, _⟩ => ⟨S1x2048, .f32⟩
  | .hbm, ⟨19, _⟩ => ⟨S32768x2048, .f32⟩
  | .hbm, ⟨20, _⟩ => ⟨S64x512x2048, .f32⟩
  | .local _ .vmem, ⟨0, _⟩ => ⟨S1024x128, .f32⟩
  | .local _ .vmem, ⟨1, _⟩ => ⟨S1024x128, .f32⟩
  | .local _ .vmem, ⟨2, _⟩ => ⟨S128x2048, .bf16⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_call0_v15 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x128_S32768x128 : S64x512x128.ShapeCasts S32768x128
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x16_S1x128x16_1_2 : S128x16.BroadcastsInDim S1x128x16 (![1, 2] : Fin 2 → Fin S1x128x16.rank)
  bcast_S128x128x1_S128x128x16_0_1_2 : S128x128x1.BroadcastsInDim S128x128x16 (![0, 1, 2] : Fin 3 → Fin S128x128x16.rank)
  bcast_S1x128x16_S128x128x16_0_1_2 : S1x128x16.BroadcastsInDim S128x128x16 (![0, 1, 2] : Fin 3 → Fin S128x128x16.rank)
  shapeCasts_S128x128x16_S128x2048 : S128x128x16.ShapeCasts S128x2048
  bitsLt_bf16_f32 : FTy.bits .bf16 < FTy.bits .f32
  shapeCasts_S128x16_S1x2048 : S128x16.ShapeCasts S1x2048
  shapeCasts_S32768x2048_S64x512x2048 : S32768x2048.ShapeCasts S64x512x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .bf16 = 32 ∨ (Rect.block (s := S128x2048) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S32768x2048.size a
  hwx0_3 : ∀ i : grid0.Coords, EltTy.bits .f32 = 32 ∨ (Rect.block (s := S32768x2048) S1024x2048.size (cc0_transform_3 i) (hinb0_3 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_call0_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v15) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S128x16 : Shape := ⟨2, ![128, 16]⟩
abbrev S64x512x128x1 : Shape := ⟨4, ![64, 512, 128, 1]⟩
abbrev S1x1x128x16 : Shape := ⟨4, ![1, 1, 128, 16]⟩
abbrev S64x512x128x16 : Shape := ⟨4, ![64, 512, 128, 16]⟩
abbrev S64x512x2048 : Shape := ⟨3, ![64, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S128x16, .f32⟩
  | .hbm, ⟨2, _⟩ => ⟨S128x16, .f32⟩
  | .hbm, ⟨3, _⟩ => ⟨S64x512x128x1, .f32⟩
  | .hbm, ⟨4, _⟩ => ⟨S1x1x128x16, .f32⟩
  | .hbm, ⟨5, _⟩ => ⟨S64x512x128x16, .f32⟩
  | .hbm, ⟨6, _⟩ => ⟨S64x512x128x16, .f32⟩
  | .hbm, ⟨7, _⟩ => ⟨S64x512x128x16, .f32⟩
  | .hbm, ⟨8, _⟩ => ⟨S1x1x128x16, .f32⟩
  | .hbm, ⟨9, _⟩ => ⟨S64x512x128x16, .f32⟩
  | .hbm, ⟨10, _⟩ => ⟨S64x512x128x16, .f32⟩
  | .hbm, ⟨11, _⟩ => ⟨S64x512x2048, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S64x512x128_S64x512x128x1_0_1_2 : S64x512x128.BroadcastsInDim S64x512x128x1 (![0, 1, 2] : Fin 3 → Fin S64x512x128x1.rank)
  bcast_S128x16_S1x1x128x16_2_3 : S128x16.BroadcastsInDim S1x1x128x16 (![2, 3] : Fin 2 → Fin S1x1x128x16.rank)
  bcast_S64x512x128x1_S64x512x128x16_0_1_2_3 : S64x512x128x1.BroadcastsInDim S64x512x128x16 (![0, 1, 2, 3] : Fin 4 → Fin S64x512x128x16.rank)
  bcast_S1x1x128x16_S64x512x128x16_0_1_2_3 : S1x1x128x16.BroadcastsInDim S64x512x128x16 (![0, 1, 2, 3] : Fin 4 → Fin S64x512x128x16.rank)
  shapeCasts_S64x512x128x16_S64x512x2048 : S64x512x128x16.ShapeCasts S64x512x2048

variable [Facts₀]

class Facts : Prop extends Facts₀ where

variable [Facts]
-- ==== Proof.Entry.lean ====
/-
  What the grid finds in the three arrays its input windows stage, as functions of the program's arguments.

  Before the grid runs, the program lays the activations out as a matrix of 32768 rows (row r is token r mod 512 of
  batch r / 512), expands the weights W (128 features by 16 channels) into a 128 x 2048 matrix that is zero off its
  diagonal blocks — entry (k, 16 i + j) is the identity matrix's entry (k, i) times W (i, j), the identity built by
  comparing a row counter with a column counter — and lays the biases out as one row of 2048 entries, entry 16 i + j
  being b (i, j). Each of the three is read here at an index.
-/
import proofs.«175167_j39024072851809_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.IdealHost

noncomputable section

namespace Cert.KernelIdeal.Entry

open Cert.KernelIdeal Cert.KernelIdeal.Gen
open Idealize.ShloMosaic Idealize.ShloMosaic.TcCoe Idealize.SL.Sem Idealize.ShloMosaic.StableHlo Idealize.ShloMosaic.ValueIdx

/-! ## The three arrays as terms of the arguments -/

/-- The activations as a matrix: one row per (batch, token) pair. -/
def rows (x : FVec Ideal S64x512x128 .f32) : FVec Ideal S32768x128 .f32 :=
  shapeCast S32768x128 x shapeCasts_S64x512x128_S32768x128

/-- The identity matrix of order 128 as the program builds it: a row counter (plus a zero) compared with a column
    counter, the truth value read as a number. -/
def eye : FVec Ideal S128x128 .f32 :=
  uitofp .f32 (cmpi .eq (addi (iotaInDim S128x128 32 0) (broadcastInDim S128x128 ![] bcast_S_S128x128 (constantI S_ 32 0#32)))
    (iotaInDim S128x128 32 1))

/-- The weights spread over the diagonal blocks of a 128 x 2048 matrix. -/
def diag (w : FVec Ideal S128x16 .f32) : FVec Ideal S128x2048 .bf16 :=
  truncf .bf16
    (shapeCast S128x2048
      (mulf
        (broadcastInDim S128x128x16 ![0, 1, 2] bcast_S128x128x1_S128x128x16_0_1_2
          (broadcastInDim S128x128x1 ![0, 1] bcast_S128x128_S128x128x1_0_1 eye))
        (broadcastInDim S128x128x16 ![0, 1, 2] bcast_S1x128x16_S128x128x16_0_1_2
          (broadcastInDim S1x128x16 ![1, 2] bcast_S128x16_S1x128x16_1_2 w)))
      shapeCasts_S128x128x16_S128x2048)
    bitsLt_bf16_f32

/-- The biases as one row. -/
def biasRow (b : FVec Ideal S128x16 .f32) : FVec Ideal S1x2048 .f32 :=
  shapeCast S1x2048 b shapeCasts_S128x16_S1x2048

variable (m : (ℓ : Loc nD τ sig) → Buf (Elt Ideal) ℓ)

/-- The first window's array holds the activations as a matrix. -/
theorem V_rows (c : Dev nD) :
    (V m c main_call0_v0 : S32768x128.Idx → EReal) = rows (m ((c : Thread nD τ).loc main_arg0)) := by
  show StableHlo.after hostOps0 (fun b => m (c, b)) (Proc.devRef .tc main_call0_v0) = _
  after_results
  rfl

/-- The second window's array holds the block-diagonal weights. -/
theorem V_diag (c : Dev nD) :
    (V m c main_call0_v13 : S128x2048.Idx → EReal) = diag (m ((c : Thread nD τ).loc main_arg1)) := by
  show StableHlo.after hostOps0 (fun b => m (c, b)) (Proc.devRef .tc main_call0_v13) = _
  after_results
  rfl

/-- The third window's array holds the bias row. -/
theorem V_biasRow (c : Dev nD) :
    (V m c main_call0_v14 : S1x2048.Idx → EReal) = biasRow (m ((c : Thread nD τ).loc main_arg2)) := by
  show StableHlo.after hostOps0 (fun b => m (c, b)) (Proc.devRef .tc main_call0_v14) = _
  after_results
  rfl

/-! ## Each read at an index -/

/-- Row `512 a + b` of the matrix is token `b` of batch `a`. -/
theorem rows_apply (x : FVec Ideal S64x512x128 .f32) (r : Fin 32768) (a : Fin 64) (b : Fin 512) (k : Fin 128)
    (hr : r.val = a.val * 512 + b.val) : rows x (ix2 r k) = x (ix3 a b k) := by
  unfold rows
  refine shapeCast_apply x _ (ix2 r k) (ix3 a b k) ?_
  rw [Shape.rowMajor_val_three, Shape.rowMajor_val_two]
  show (a.val * 512 + b.val) * 128 + k.val = r.val * 128 + k.val
  rw [hr]

/-- Entry `16 i + j` of the bias row is `b (i, j)`. -/
theorem biasRow_apply (b : FVec Ideal S128x16 .f32) (n : Fin 2048) (i : Fin 128) (j : Fin 16)
    (hn : n.val = i.val * 16 + j.val) : biasRow b (ix2 (0 : Fin 1) n) = b (ix2 i j) := by
  unfold biasRow
  refine shapeCast_apply b _ (ix2 (0 : Fin 1) n) (ix2 i j) ?_
  rw [Shape.rowMajor_val_two, Shape.rowMajor_val_two]
  show i.val * 16 + j.val = 0 * 2048 + n.val
  rw [hn]; omega

/-- The comparison of the two counters, as a word: one on the diagonal, zero off it. -/
theorem counters_eq (k i : Fin 128) :
    IntOp.cmpi .eq (IntOp.addi (BitVec.ofNat 32 k.val) 0#32) (BitVec.ofNat 32 i.val) = if k = i then 1#1 else 0#1 := by
  unfold IntOp.cmpi IntOp.addi
  rw [BitVec.add_zero]
  by_cases h : k = i
  · subst h; simp
  · rw [if_neg h]
    have hne : BitVec.ofNat 32 k.val ≠ BitVec.ofNat 32 i.val := by
      intro e
      have e' := congrArg BitVec.toNat e
      rw [BitVec.toNat_ofNat, BitVec.toNat_ofNat] at e'
      have hk := k.isLt
      have hi := i.isLt
      exact h (Fin.ext (by omega))
    rw [show (BitVec.ofNat 32 k.val == BitVec.ofNat 32 i.val) = false from beq_eq_false_iff_ne.mpr hne]
    rfl

/-- The identity matrix at (k, i): one when k = i, zero otherwise. -/
theorem eye_apply (k i : Fin 128) : eye (ix2 k i) = if k = i then (1 : EReal) else 0 := by
  show FloatOps.uitofp (F := Ideal) .f32 (IntOp.cmpi .eq (IntOp.addi (BitVec.ofNat 32 k.val)
      (broadcastInDim S128x128 ![] bcast_S_S128x128 (constantI S_ 32 0#32) (ix2 k i))) (BitVec.ofNat 32 i.val)) = _
  rw [broadcastInDim_scalar_apply]
  show FloatOps.uitofp (F := Ideal) .f32 (IntOp.cmpi .eq (IntOp.addi (BitVec.ofNat 32 k.val) 0#32) (BitVec.ofNat 32 i.val)) = _
  rw [counters_eq]
  by_cases h : k = i
  · rw [if_pos h, if_pos h]
    show (((1#1 : BitVec 1).toNat : ℝ) : EReal) = 1
    norm_num
  · rw [if_neg h, if_neg h]
    show (((0#1 : BitVec 1).toNat : ℝ) : EReal) = 0
    norm_num

/-- The block-diagonal weights at (k, 16 i + j): W (i, j) when k = i, zero times W (i, j) otherwise. -/
theorem diag_apply (w : FVec Ideal S128x16 .f32) (k : Fin 128) (n : Fin 2048) (i : Fin 128) (j : Fin 16)
    (hn : n.val = i.val * 16 + j.val) :
    diag w (ix2 k n) = (if k = i then (1 : EReal) else 0) * w (ix2 i j) := by
  unfold diag
  rw [truncf_apply,
    shapeCast_apply _ shapeCasts_S128x128x16_S128x2048 (ix2 k n) (ix3 k i j) (by
      rw [Shape.rowMajor_val_three, Shape.rowMajor_val_two]
      show (k.val * 128 + i.val) * 16 + j.val = k.val * 2048 + n.val
      rw [hn]; omega),
    mulf_apply,
    broadcastInDim_apply _ bcast_S128x128x1_S128x128x16_0_1_2 _ (ix3 k i j) (ix3 k i (0 : Fin 1)) (fun a => match a with
      | ⟨0, _⟩ => by show k.val = if (128 : Nat) = 1 then 0 else k.val; rw [if_neg (by decide)]
      | ⟨1, _⟩ => by show i.val = if (128 : Nat) = 1 then 0 else i.val; rw [if_neg (by decide)]
      | ⟨2, _⟩ => by show 0 = if (1 : Nat) = 1 then 0 else j.val; rw [if_pos rfl]),
    broadcastInDim_apply _ bcast_S128x128_S128x128x1_0_1 _ (ix3 k i (0 : Fin 1)) (ix2 k i) (fun a => match a with
      | ⟨0, _⟩ => by show k.val = if (128 : Nat) = 1 then 0 else k.val; rw [if_neg (by decide)]
      | ⟨1, _⟩ => by show i.val = if (128 : Nat) = 1 then 0 else i.val; rw [if_neg (by decide)]),
    broadcastInDim_apply _ bcast_S1x128x16_S128x128x16_0_1_2 _ (ix3 k i j) (ix3 (0 : Fin 1) i j) (fun a => match a with
      | ⟨0, _⟩ => by show 0 = if (1 : Nat) = 1 then 0 else k.val; rw [if_pos rfl]
      | ⟨1, _⟩ => by show i.val = if (128 : Nat) = 1 then 0 else i.val; rw [if_neg (by decide)]
      | ⟨2, _⟩ => by show j.val = if (16 : Nat) = 1 then 0 else j.val; rw [if_neg (by decide)]),
    broadcastInDim_apply _ bcast_S128x16_S1x128x16_1_2 _ (ix3 (0 : Fin 1) i j) (ix2 i j) (fun a => match a with
      | ⟨0, _⟩ => by show i.val = if (128 : Nat) = 1 then 0 else i.val; rw [if_neg (by decide)]
      | ⟨1, _⟩ => by show j.val = if (16 : Nat) = 1 then 0 else j.val; rw [if_neg (by decide)]),
    eye_apply]

end Cert.KernelIdeal.Entry

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.Body.lean ====
/-
  The kernel body's one stored value, read at an index.

  At a grid point the body holds a block of 1024 rows of the activation matrix, the whole 128 x 2048 weight matrix and
  the bias row. It multiplies the block by the weights on the matrix unit, starting from zero, and adds the bias row to
  every row of the product. Rounding the activations to a shorter format changes nothing at the ideal values. So entry
  (p, q) of what it stores is the sum over c of block (p, c) * weights (c, q), plus bias (q).
-/
import proofs.«175167_j39024072851809_2_alg».proof.Proof.Gen.KernelIdeal.Skeleton
import proofs.«175167_j39024072851809_2_alg».proof.Proof.LibDot
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen
open Idealize.ShloMosaic Idealize.ShloMosaic.ValueIdx
open scoped BigOperators

/-- Entry (p, q) of the stored block: row p of the activations against column q of the weights, plus the bias at q. -/
theorem pay_apply (x0 : Vec Ideal S1024x128 .f32) (x1 : Vec Ideal S128x2048 .bf16) (x2 : Vec Ideal S1x2048 .f32)
    (p : Fin 1024) (q : Fin 2048) :
    k0_pay1 x0 x1 x2 (ix2 p q) = (∑ c : Fin 128, x0 (ix2 p c) * x1 (ix2 c q)) + x2 (ix2 (0 : Fin 1) q) := by
  unfold k0_pay1
  rw [addf_apply, broadcastTo_1b_ab_apply, shapeCast_self, shapeCast_self, shapeCast_self]
  refine congrArg (· + x2 (ix2 (0 : Fin 1) q)) ?_
  exact Cert.LibDot.matmul_zero_apply dot_S1024x128_S128x2048_S1024x2048_1_0_0_1_n_n_wf none
    (truncf .bf16 x0 bitsLt_bf16_f32) x1 p q

end Cert.KernelIdeal.Body

end
-- ==== Proof.Blocks.lean ====
/-
  From what each grid point writes back to the whole output matrix.

  Grid point t holds rows 1024 t … 1024 t + 1023 of the activation matrix, the whole weight matrix and the whole bias
  row, and writes back rows 1024 t … 1024 t + 1023 of the output. What it writes is, entry by entry, the matrix product
  of the activations with the weights plus the bias row, restricted to those rows; the 32 row blocks tile the output,
  so after the grid the output matrix is that product plus bias everywhere.
-/
import proofs.«175167_j39024072851809_2_alg».proof.Proof.Gen.KernelIdeal.Frame
import proofs.«175167_j39024072851809_2_alg».proof.Proof.Body
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The product plus bias, of any three arrays -/

/-- Entry (r, q): row r of the left matrix against column q of the right one, plus the row vector at q. -/
def entry (X : FVec Ideal S32768x128 .f32) (Wd : FVec Ideal S128x2048 .bf16) (bz : FVec Ideal S1x2048 .f32)
    (r : Fin 32768) (q : Fin 2048) : EReal :=
  (∑ k : Fin 128, X (ix2 r k) * Wd (ix2 k q)) + bz (ix2 (0 : Fin 1) q)

/-- The whole 32768 x 2048 matrix of those entries. -/
def prodPlus (X : FVec Ideal S32768x128 .f32) (Wd : FVec Ideal S128x2048 .bf16) (bz : FVec Ideal S1x2048 .f32) :
    FVec Ideal S32768x2048 .f32 :=
  fun i => entry X Wd bz ⟨(i 0).val, idx2_lt0 i⟩ ⟨(i 1).val, idx2_lt1 i⟩

/-- A block of 1024 rows of the left matrix, starting at row 1024 b, against the whole right matrix and row vector:
    what the body stores at block entry y is the product plus bias at the array entry that y is. -/
theorem stored_eq (X : FVec Ideal S32768x128 .f32) (Wd : FVec Ideal S128x2048 .bf16) (bz : FVec Ideal S1x2048 .f32)
    (x0 : Vec Ideal S1024x128 .f32) (b : Nat)
    (h0 : ∀ (p : Fin 1024) (k : Fin 128) (r : Fin 32768), r.val = b * 1024 + p.val → x0 (ix2 p k) = X (ix2 r k))
    (y : S1024x2048.Idx) (i : S32768x2048.Idx) (hi0 : (i 0).val = b * 1024 + (y 0).val) (hi1 : (i 1).val = (y 1).val) :
    k0_pay1 x0 Wd bz y = prodPlus X Wd bz i := by
  obtain ⟨p, q, rfl⟩ : ∃ (p : Fin 1024) (q : Fin 2048), y = ix2 p q := ⟨y 0, y 1, eq_ix2 y⟩
  rw [Body.pay_apply]
  unfold prodPlus entry
  have hq : (⟨(i 1).val, idx2_lt1 i⟩ : Fin 2048) = q := Fin.ext hi1
  rw [hq]
  refine congrArg (· + bz (ix2 (0 : Fin 1) q)) (Finset.sum_congr rfl fun k _ => ?_)
  rw [h0 p k ⟨(i 0).val, idx2_lt0 i⟩ hi0]

variable (m : (ℓ : Loc nD τ sig) → Buf (Elt Ideal) ℓ)

/-! ## The windows' blocks -/

theorem hz : (![0, 0] : Fin 2 → Nat) = fun _ => 0 := funext fun a => by fin_cases a <;> rfl

/-- The index maps over the grid: the activations' and the output's block row is the point's number; the weights' and
    the bias row's block is always the first (their one block is the whole array). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point t is rows 1024 t … 1024 t + 1023 of the activation matrix. -/
theorem iblk0_apply (c : Dev nD) (t : Fin cfg0.N) (p : Fin 1024) (k : Fin 128) (r : Fin 32768)
    (hr : r.val = t.val * 1024 + p.val) :
    (iblk m c 0 t : Vec Ideal S1024x128 .f32) (ix2 p k) = (V m c main_call0_v0 : S32768x128.Idx → EReal) (ix2 r k) := by
  obtain ⟨e0, e1, -⟩ := idx_facts t
  unfold iblk
  rw [View.read_apply]
  show (V m c main_call0_v0 : S32768x128.Idx → EReal) (((cfg0.win 0).blk t).view.emb (ix2 p k)) = _
  refine congrArg (V m c main_call0_v0 : S32768x128.Idx → EReal) (funext fun a => Fin.ext ?_)
  match a with
  | ⟨0, _⟩ => show win0_0.index t (0 : Fin 2) * 1024 + 1 * p.val = r.val; rw [e0, hr]; omega
  | ⟨1, _⟩ => show win0_0.index t (1 : Fin 2) * 128 + 1 * k.val = k.val; rw [e1]; omega

/-- The weights' block at every point is the whole weight matrix. -/
theorem iblk1_eq (c : Dev nD) (t : Fin cfg0.N) :
    (iblk m c 1 t : Vec Ideal S128x2048 .bf16) = (V m c main_call0_v13 : S128x2048.Idx → EReal) := by
  obtain ⟨-, -, e2, e3, -⟩ := idx_facts t
  funext y
  unfold iblk
  rw [View.read_apply]
  show (V m c main_call0_v13 : S128x2048.Idx → EReal) (((cfg0.win 1).blk t).view.emb y) = _
  refine congrArg (V m c main_call0_v13 : S128x2048.Idx → EReal) (funext fun a => Fin.ext ?_)
  match a with
  | ⟨0, _⟩ => show win0_1.index t (0 : Fin 2) * 128 + 1 * (y 0).val = (y 0).val; rw [e2]; omega
  | ⟨1, _⟩ => show win0_1.index t (1 : Fin 2) * 2048 + 1 * (y 1).val = (y 1).val; rw [e3]; omega

/-- The bias row's block at every point is the whole bias row. -/
theorem iblk2_eq (c : Dev nD) (t : Fin cfg0.N) :
    (iblk m c 2 t : Vec Ideal S1x2048 .f32) = (V m c main_call0_v14 : S1x2048.Idx → EReal) := by
  obtain ⟨-, -, -, -, e4, e5, -⟩ := idx_facts t
  funext y
  unfold iblk
  rw [View.read_apply]
  show (V m c main_call0_v14 : S1x2048.Idx → EReal) (((cfg0.win 2).blk t).view.emb y) = _
  refine congrArg (V m c main_call0_v14 : S1x2048.Idx → EReal) (funext fun a => Fin.ext ?_)
  match a with
  | ⟨0, _⟩ => show win0_2.index t (0 : Fin 2) * 1 + 1 * (y 0).val = (y 0).val; rw [e4]; omega
  | ⟨1, _⟩ => show win0_2.index t (1 : Fin 2) * 2048 + 1 * (y 1).val = (y 1).val; rw [e5]; omega

/-! ## What a point writes back, and the matrix after the grid -/

/-- The output matrix the grid computes, from the three arrays as the grid finds them. -/
abbrev product (c : Dev nD) : FVec Ideal S32768x2048 .f32 :=
  prodPlus (V m c main_call0_v0) (V m c main_call0_v13) (V m c main_call0_v14)

/-- What point t writes back is its block of rows of the product plus bias. -/
theorem flushed_eq (c : Dev nD) (t : Fin cfg0.N) :
    (dats m 0 c).flushed 3 t = ((cfg0.win 3).blk t).view.read (Elt Ideal) (product m c) := by
  show (cfg0.win 3).cut (grid0.coords t) ((dats m 0 c).after 3 t) = _
  rw [after0_3]
  unfold out0_3
  rw [View.canon_unit_zero hz]
  simp only [View.ld_unit_zero (S := S1024x128) hz, View.ld_unit_zero (S := S128x2048) hz, View.ld_unit_zero (S := S1x2048) hz]
  rw [iblk1_eq m c t, iblk2_eq m c t]
  obtain ⟨-, -, -, -, -, -, e6, e7⟩ := idx_facts t
  funext y
  refine stored_eq (V m c main_call0_v0) (V m c main_call0_v13) (V m c main_call0_v14) (iblk m c 0 t) t.val
    (fun p k r hr => iblk0_apply m c t p k r hr) y (((cfg0.win 3).blk t).view.emb y) ?_ ?_
  · show win0_3.index t (0 : Fin 2) * 1024 + 1 * (y 0).val = t.val * 1024 + (y 0).val
    rw [e6]; omega
  · show win0_3.index t (1 : Fin 2) * 2048 + 1 * (y 1).val = (y 1).val
    rw [e7]; omega

/-- An entry of the output is in point t's block iff each coordinate is in the block's range on its axis. -/
theorem mem_blk (t : Fin cfg0.N) (i : S32768x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_call0_v15).slice (win0_3.rect t)).set ↔ _
  rw [View.set_slice_whole, Rect.mem_set_unit]
  exact Iff.rfl

/-- Every entry of the output is in the block of the point numbered by its row divided by 1024. -/
theorem cover (i : S32768x2048.Idx) :
    ∃ t : Fin cfg0.N, (cfg0.win 3).flush t = true ∧ i ∈ ((cfg0.win 3).blk t).view.set := by
  have h0 : (i 0).val < 32768 := idx2_lt0 i
  have h1 : (i 1).val < 2048 := idx2_lt1 i
  have hN : cfg0.N = 32 := N_0
  obtain ⟨t, ht⟩ : ∃ t : Fin cfg0.N, t.val = (i 0).val / 1024 := ⟨⟨(i 0).val / 1024, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 2048 ≤ (i 1).val ∧ (i 1).val < win0_3.index t (1 : Fin 2) * 2048 + 2048
    rw [e7]; omega

/-- After the grid the output matrix is the product plus bias. -/
theorem final (c : Dev nD) : (dats m 0 c).arrAt 3 cfg0.N = product m c :=
  (dats m 0 c).arrAt_eq_of_cover 3 (product m c) (fun t _ => flushed_eq m c t) cover

end Cert.KernelIdeal.Blocks

end
-- ==== Proof.Spec.lean ====
/-
  The embedding every token's features receive, and the one law that lets a matrix product compute it.

  The result: feature i of a token, a number x, becomes the sixteen numbers x * W (i, j) + b (i, j), j = 0 … 15, laid
  side by side, feature after feature, so that position 16 i + j of the token's 2048 outputs is x (i) * W (i, j) + b (i, j).

  The law: a sum over k of x (k) times (δ (k, i) * w), where δ (k, i) is one when k = i and zero otherwise, is its one
  term x (i) * w. On the extended reals zero times anything is zero, so every other term vanishes whatever x (k) and w
  are, infinite or not; nothing about finiteness is needed.
-/
import Idealize.ShloMosaic.PureOps.Ideal
import Idealize.ShloMosaic.Lib.ValueIdx

noncomputable section

namespace Cert.Embed

open Idealize.ShloMosaic Idealize.ShloMosaic.ValueIdx
open scoped BigOperators

/-- Only the diagonal term of a sum against a diagonal selector survives. -/
theorem sum_diag {n : Nat} (x : Fin n → EReal) (w : EReal) (i : Fin n) :
    ∑ k : Fin n, x k * ((if k = i then (1 : EReal) else 0) * w) = x i * w := by
  rw [Finset.sum_eq_single i]
  · rw [if_pos rfl, one_mul]
  · intro k _ hk
    rw [if_neg hk, zero_mul, mul_zero]
  · intro h
    exact absurd (Finset.mem_univ i) h

/-- Position n of a token's outputs belongs to feature n / 16 -/
abbrev feat (n : Fin 2048) : Fin 128 := ⟨n.val / 16, by have := n.isLt; omega⟩
/-- and to channel n mod 16 of it. -/
abbrev chan (n : Fin 2048) : Fin 16 := ⟨n.val % 16, by omega⟩

theorem feat_chan (n : Fin 2048) : n.val = (feat n).val * 16 + (chan n).val := by
  show n.val = n.val / 16 * 16 + n.val % 16
  omega

/-- The embedding: output (a, t, n) is x (a, t, n / 16) * W (n / 16, n mod 16) + b (n / 16, n mod 16). -/
def embed (x : (⟨3, ![64, 512, 128]⟩ : Shape).Idx → EReal) (w b : (⟨2, ![128, 16]⟩ : Shape).Idx → EReal) :
    (⟨3, ![64, 512, 2048]⟩ : Shape).Idx → EReal :=
  fun i => x (ix3 (i 0) (i 1) (feat (i 2))) * w (ix2 (feat (i 2)) (chan (i 2))) + b (ix2 (feat (i 2)) (chan (i 2)))

end Cert.Embed

end
-- ==== Proof.KernelValue.lean ====
/-
  The kernel's output matrix, reshaped, is the embedding.

  Row 512 a + t of the product plus bias is token (a, t). Its entry at column n is the sum over k of
  x (a, t, k) * (δ (k, n / 16) * W (n / 16, n mod 16)), plus b (n / 16, n mod 16): the weight matrix has W's entries on
  its diagonal blocks and zero times them elsewhere. Only the term k = n / 16 survives, which is the embedding.
-/
import proofs.«175167_j39024072851809_2_alg».proof.Proof.Entry
import proofs.«175167_j39024072851809_2_alg».proof.Proof.Blocks
import proofs.«175167_j39024072851809_2_alg».proof.Proof.Spec
import Idealize.ShloMosaic.Lib.Pipeline.Value
import Idealize.ShloMosaic.Lib.ValueIdx

noncomputable section

namespace Cert.KernelIdeal.KernelValue

open Cert.KernelIdeal Cert.KernelIdeal.Gen Cert.Embed
open Idealize.ShloMosaic Idealize.ShloMosaic.ValueIdx
open scoped BigOperators

/-- One entry of the product plus bias of the three arrays the program prepares: the embedding's value. -/
theorem entry_embed (x : FVec Ideal S64x512x128 .f32) (w b : FVec Ideal S128x16 .f32)
    (a : Fin 64) (tk : Fin 512) (n : Fin 2048) (r : Fin 32768) (hr : r.val = a.val * 512 + tk.val) :
    Blocks.entry (Entry.rows x) (Entry.diag w) (Entry.biasRow b) r n
      = x (ix3 a tk (feat n)) * w (ix2 (feat n) (chan n)) + b (ix2 (feat n) (chan n)) := by
  unfold Blocks.entry
  rw [Entry.biasRow_apply b n (feat n) (chan n) (feat_chan n)]
  refine congrArg (· + b (ix2 (feat n) (chan n))) ?_
  rw [← sum_diag (fun k => x (ix3 a tk k)) (w (ix2 (feat n) (chan n))) (feat n)]
  refine Finset.sum_congr rfl fun k _ => ?_
  rw [Entry.rows_apply x r a tk k hr, Entry.diag_apply w k n (feat n) (chan n) (feat_chan n)]

/-- The product plus bias, with its rows regrouped by batch and token, is the embedding. -/
theorem product_embed (x : FVec Ideal S64x512x128 .f32) (w b : FVec Ideal S128x16 .f32) :
    shapeCast S64x512x2048 (Blocks.prodPlus (Entry.rows x) (Entry.diag w) (Entry.biasRow b))
        shapeCasts_S32768x2048_S64x512x2048 = embed x w b := by
  funext i
  obtain ⟨a, tk, n, rfl⟩ : ∃ (a : Fin 64) (tk : Fin 512) (n : Fin 2048), i = ix3 a tk n := ⟨i 0, i 1, i 2, eq_ix3 i⟩
  have hlt : a.val * 512 + tk.val < 32768 := by have := a.isLt; have := tk.isLt; omega
  rw [shapeCast_apply _ shapeCasts_S32768x2048_S64x512x2048 (ix3 a tk n) (ix2 (⟨a.val * 512 + tk.val, hlt⟩ : Fin 32768) n) (by
    rw [Shape.rowMajor_val_two, Shape.rowMajor_val_three]; rfl)]
  exact entry_embed x w b a tk n ⟨a.val * 512 + tk.val, hlt⟩ rfl

end Cert.KernelIdeal.KernelValue

end
-- ==== Proof.KernelRun.lean ====
/-
  The kernel program's run, read: its result is the embedding of its arguments.

  After the grid the program regroups the output matrix's 32768 rows by batch and token. The matrix is the product
  plus bias of the three arrays the program prepared from its arguments, so the regrouped result is the embedding;
  the arguments themselves are untouched.
-/
import proofs.«175167_j39024072851809_2_alg».proof.Proof.Gen.KernelIdeal.Frame
import proofs.«175167_j39024072851809_2_alg».proof.Proof.Entry
import proofs.«175167_j39024072851809_2_alg».proof.Proof.Blocks
import proofs.«175167_j39024072851809_2_alg».proof.Proof.KernelValue
import proofs.«175167_j39024072851809_2_alg».proof.Proof.Spec
import Idealize.ShloMosaic.Lib.StableHlo.Run
import Idealize.ShloMosaic.Lib.Pipeline.Value

noncomputable section

namespace Cert.KernelIdeal.KernelRun

open Cert.KernelIdeal Cert.KernelIdeal.Gen Cert.Embed
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- What the program's result buffer holds after the regrouping that follows the grid: the embedding. -/
theorem tail_eq (c : Dev nD) :
    (Pipeline.afterTail₀ cfgs (dats m) 0 (V0 m) [hostOps1] c main_v0 : S64x512x2048.Idx → EReal)
      = embed (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v0) = _
  after_results
  rw [(Pipeline.withArrays_arr spec0 launch0.win.arr_inj c _ _ 3).trans (Blocks.final m c)]
  unfold Blocks.product
  rw [Entry.V_rows, Entry.V_diag, Entry.V_biasRow]
  exact KernelValue.product_embed _ _ _

/-- Every weakly fair execution of the kernel program ends with the embedding in its result and its arguments as
    they were. -/
theorem run : θ_run defs (onTc (τ := τ) (main (F := Ideal))) ⟨m, fun _ => 0, ρ⟩ fun r => ∀ c : Dev nD,
      r.2.mem ((c.tc : Thread nD τ).loc main_v0)
        = embed (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The reference's result is the embedding.

  The reference multiplies every feature of every token by that feature's sixteen weights, adds that feature's sixteen
  biases, and lays the 128 groups of sixteen side by side. Read at output (a, t, n), with the generated stage-by-stage
  reading, it is x (a, t, n / 16) * W (n / 16, n mod 16) + b (n / 16, n mod 16).
-/
import proofs.«175167_j39024072851809_2_alg».proof.Proof.Gen.ReferenceIdeal.Read
import proofs.«175167_j39024072851809_2_alg».proof.Proof.Spec
import Idealize.ShloMosaic.Lib.ValueIdx

noncomputable section

namespace Cert.ReferenceIdeal.RefValue

open Cert.ReferenceIdeal Cert.ReferenceIdeal.Gen Cert.ReferenceIdeal.Read Cert.Embed
open Idealize.ShloMosaic Idealize.ShloMosaic.ValueIdx

/-- Where the reshaped result's entry (a, t, n) sits among the unreshaped products: token (a, t), feature n / 16,
    channel n mod 16 — and from there back to the activations' index, -/
theorem idx_x (a : Fin 64) (tk : Fin 512) (n : Fin 2048) :
    idx_main_v0 (idx_main_v2 (idx_main_v8 (ix3 a tk n))) = ix3 a tk (feat n) := by
  have ha := a.isLt; have ht := tk.isLt; have hn := n.isLt
  funext d; apply Fin.ext
  match d with
  | ⟨0, _⟩ => show ((a.val * 512 + tk.val) * 2048 + n.val) / 1048576 = a.val; omega
  | ⟨1, _⟩ => show ((a.val * 512 + tk.val) * 2048 + n.val) / 2048 % 512 = tk.val; omega
  | ⟨2, _⟩ => show ((a.val * 512 + tk.val) * 2048 + n.val) / 16 % 128 = n.val / 16; omega

/-- to the weights' index, -/
theorem idx_w (a : Fin 64) (tk : Fin 512) (n : Fin 2048) :
    idx_main_v1 (idx_main_v3 (idx_main_v8 (ix3 a tk n))) = ix2 (feat n) (chan n) := by
  have ha := a.isLt; have ht := tk.isLt; have hn := n.isLt
  funext d; apply Fin.ext
  match d with
  | ⟨0, _⟩ => show ((a.val * 512 + tk.val) * 2048 + n.val) / 16 % 128 = n.val / 16; omega
  | ⟨1, _⟩ => show ((a.val * 512 + tk.val) * 2048 + n.val) % 16 = n.val % 16; omega

/-- and to the biases' index. -/
theorem idx_b (a : Fin 64) (tk : Fin 512) (n : Fin 2048) :
    idx_main_v5 (idx_main_v6 (idx_main_v8 (ix3 a tk n))) = ix2 (feat n) (chan n) := by
  have ha := a.isLt; have ht := tk.isLt; have hn := n.isLt
  funext d; apply Fin.ext
  match d with
  | ⟨0, _⟩ => show ((a.val * 512 + tk.val) * 2048 + n.val) / 16 % 128 = n.val / 16; omega
  | ⟨1, _⟩ => show ((a.val * 512 + tk.val) * 2048 + n.val) % 16 = n.val % 16; omega

/-- The reference's last stage is the embedding of its three arguments. -/
theorem result_embed (x : FVec Ideal S64x512x128 .f32) (w b : FVec Ideal S128x16 .f32) :
    val_main_v8 (F := Ideal) x w b = embed x w b := by
  funext i
  obtain ⟨a, tk, n, rfl⟩ : ∃ (a : Fin 64) (tk : Fin 512) (n : Fin 2048), i = ix3 a tk n := ⟨i 0, i 1, i 2, eq_ix3 i⟩
  rw [val_main_v8_apply, val_main_v7_apply, val_main_v4_apply, val_main_v2_apply, val_main_v0_apply,
    val_main_v3_apply, val_main_v1_apply, val_main_v6_apply, val_main_v5_apply, idx_x, idx_w, idx_b]
  rfl

end Cert.ReferenceIdeal.RefValue

end
-- ==== Proof.lean ====
/-
  A per-feature embedding computed by one matrix product, against its plain reference.

  Every token has 128 features; feature i, a number x, is to become the sixteen numbers x * W (i, j) + b (i, j). The
  reference computes exactly that, feature by feature. The kernel instead lays all tokens out as the rows of a matrix,
  builds a 128 x 2048 weight matrix holding W (i, j) at (i, 16 i + j) and zero times a weight everywhere else,
  multiplies row blocks of the token matrix by it on the matrix unit, and adds the biases laid out as one row.
  Over the extended reals a zero factor annihilates any product, so of the 128 terms of each entry's sum only
  x (i) * W (i, j) is left and the two programs agree entry by entry, for all inputs, finite or not.

  The three frame claims are the generated frames (the reference's is its generated run with the result dropped); the
  ideal pass rewrote nothing, so there is nothing to preserve; the value claim sets the kernel program's run
  (Proof/KernelRun.lean) beside the reference's generated run, both ending at the embedding of the arguments
  (Proof/Spec.lean).
-/
import proofs.«175167_j39024072851809_2_alg».proof.Defs
import proofs.«175167_j39024072851809_2_alg».proof.Proof.Gen.Kernel
import proofs.«175167_j39024072851809_2_alg».proof.Proof.Gen.Kernel.Skeleton
import proofs.«175167_j39024072851809_2_alg».proof.Proof.Gen.Kernel.Launch
import proofs.«175167_j39024072851809_2_alg».proof.Proof.Gen.Kernel.Points
import proofs.«175167_j39024072851809_2_alg».proof.Proof.Gen.Kernel.Frame
import proofs.«175167_j39024072851809_2_alg».proof.Proof.Gen.KernelIdeal
import proofs.«175167_j39024072851809_2_alg».proof.Proof.Gen.KernelIdeal.Skeleton
import proofs.«175167_j39024072851809_2_alg».proof.Proof.Gen.KernelIdeal.Launch
import proofs.«175167_j39024072851809_2_alg».proof.Proof.Gen.KernelIdeal.Points
import proofs.«175167_j39024072851809_2_alg».proof.Proof.Gen.KernelIdeal.Frame
import proofs.«175167_j39024072851809_2_alg».proof.Proof.Gen.ReferenceIdeal
import proofs.«175167_j39024072851809_2_alg».proof.Proof.Gen.Pre_finite_inputs
import proofs.«175167_j39024072851809_2_alg».proof.Proof.Gen.ReferenceIdeal.Run
import proofs.«175167_j39024072851809_2_alg».proof.Proof.Gen.ReferenceIdeal.Read
import proofs.«175167_j39024072851809_2_alg».proof.Proof.KernelRun
import proofs.«175167_j39024072851809_2_alg».proof.Proof.RefValue
import Idealize.ShloMosaic.Adequacy
import Idealize.ShloMosaic.Init

noncomputable section

namespace Cert.Proof

open Idealize.ShloMosaic Idealize.SL.Sem

/-- The word-level kernel program runs to the end and leaves its arguments alone. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program is the printed one read at the ideal values: no rewrite to account for. -/
theorem preserves : Cert.preserves_Kernel_KernelIdeal := trivial

/-- From memories that agree on the arguments both programs end with the embedding of those arguments in their results. -/
theorem algebraic : Cert.algebraic_KernelIdeal_ReferenceIdeal := by
  intro m ρ m' ρ' _ hagree
  refine ⟨fun c => Cert.Embed.embed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_embed,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
